-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S16x2048x2048 : Shape := ⟨3, ![16, 2048, 2048]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel
  bcast_S_S16x2048x2048 : S_.BroadcastsInDim S16x2048x2048 (![] : Fin 0 → Fin S16x2048x2048.rank)
  reducesTo_S16x2048x2048_S_d0_1_2 : S16x2048x2048.ReducesTo [0, 1, 2] S_

variable [Facts]

def fn_part1 {F : FTy → Type} [FloatOps F] (main_v13 : IVec S_ 1) (main_v16 : IVec S16x2048x2048 1) : IVec S_ 1 :=
  let main_c_5 : IVec S_ 1 := constantI S_ 1 1#1
  let main_v17 : IVec S_ 1 := (fun x v => Host.reduce IntOp.andi x v reducesTo_S16x2048x2048_S_d0_1_2 h_S_) main_v16 main_c_5
  let main_v18 : IVec S_ 1 := andi main_v13 main_v17
  main_v18

def fn {F : FTy → Type} [FloatOps F] (main_arg0 : FVec F S16x2048x64 .f32) (main_arg1 : FVec F S16x2048x64 .f32) (main_arg2 : FVec F S16x2048x64 .f32) (main_arg3 : FVec F S16x2048x2048 .f32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S16x2048x64 .f32 := Host.absf main_arg1
  let main_cst_0 : FVec F S_ .f32 := constant S_ .f32 0x7F800000#32
  let main_v5 : FVec F S16x2048x64 .f32 := broadcastInDim S16x2048x64 ![] bcast_S_S16x2048x64 main_cst_0
  let main_v6 : IVec S16x2048x64 1 := cmpf .olt main_v4 main_v5
  let main_c_1 : IVec S_ 1 := constantI S_ 1 1#1
  let main_v7 : IVec S_ 1 := (fun x v => Host.reduce IntOp.andi x v reducesTo_S16x2048x64_S_d0_1_2 h_S_) main_v6 main_c_1
  let main_v8 : IVec S_ 1 := andi main_v3 main_v7
  let main_v9 : FVec F S16x2048x64 .f32 := Host.absf main_arg2
  let main_cst_2 : FVec F S_ .f32 := constant S_ .f32 0x7F800000#32
  let main_v10 : FVec F S16x2048x64 .f32 := broadcastInDim S16x2048x64 ![] bcast_S_S16x2048x64 main_cst_2
  let main_v11 : IVec S16x2048x64 1 := cmpf .olt main_v9 main_v10
  let main_c_3 : IVec S_ 1 := constantI S_ 1 1#1
  let main_v12 : IVec S_ 1 := (fun x v => Host.reduce IntOp.andi x v reducesTo_S16x2048x64_S_d0_1_2 h_S_) main_v11 main_c_3
  let main_v13 : IVec S_ 1 := andi main_v8 main_v12
  let main_v14 : FVec F S16x2048x2048 .f32 := Host.absf main_arg3
  let main_cst_4 : FVec F S_ .f32 := constant S_ .f32 0x7F800000#32
  let main_v15 : FVec F S16x2048x2048 .f32 := broadcastInDim S16x2048x2048 ![] bcast_S_S16x2048x2048 main_cst_4
  let main_v16 : IVec S16x2048x2048 1 := cmpf .olt main_v14 main_v15
  fn_part1 (F := F) main_v13 main_v16
-- ==== Kernel.lean ====
abbrev S16x2048x64 : Shape := ⟨3, ![16, 2048, 64]⟩
abbrev S16x2048x2048 : Shape := ⟨3, ![16, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x2048, .f32⟩
  | .hbm, ⟨4, _⟩ => ⟨S16x2048x64, .f32⟩
  | .hbm, ⟨5, _⟩ => ⟨S16x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x2048, .f32⟩
  | .local _ .vmem, ⟨7, _⟩ => ⟨S1x512x2048, .f32⟩
  | .local _ .vmem, ⟨8, _⟩ => ⟨S1x512x64, .f32⟩
  | .local _ .vmem, ⟨9, _⟩ => ⟨S1x512x64, .f32⟩
  | .local _ .vmem, ⟨10, _⟩ => ⟨S1x512x2048, .f32⟩
  | .local _ .vmem, ⟨11, _⟩ => ⟨S1x512x2048, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x64_S1x512x64 : S512x64.ShapeCasts S1x512x64
  shapeCasts_S512x2048_S1x512x2048 : S512x2048.ShapeCasts S1x512x2048
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S16x2048x64.size a
  hwx0_0 : ∀ i : grid0.Coords, EltTy.bits .f32 = 32 ∨ (Rect.block (s := S16x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .f32 = 32 ∨ (Rect.block (s := S16x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S16x2048x2048.size a
  hwx0_3 : ∀ i : grid0.Coords, EltTy.bits .f32 = 32 ∨ (Rect.block (s := S16x2048x2048) S1x512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S16x2048x64.size a
  hwx0_4 : ∀ i : grid0.Coords, EltTy.bits .f32 = 32 ∨ (Rect.block (s := S16x2048x64) S1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S16x2048x2048.size a
  hwx0_5 : ∀ i : grid0.Coords, EltTy.bits .f32 = 32 ∨ (Rect.block (s := S16x2048x2048) S1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 31
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x2048, .f32⟩
  | .hbm, ⟨4, _⟩ => ⟨S16x2048x2048, .f32⟩
  | .hbm, ⟨5, _⟩ => ⟨S_, .f32⟩
  | .hbm, ⟨6, _⟩ => ⟨S16x2048x2048, .f32⟩
  | .hbm, ⟨7, _⟩ => ⟨S16x2048x2048, .f32⟩
  | .hbm, ⟨8, _⟩ => ⟨S16x2048x2048, .f32⟩
  | .hbm, ⟨9, _⟩ => ⟨S_, .f32⟩
  | .hbm, ⟨10, _⟩ => ⟨S16x2048x2048, .f32⟩
  | .hbm, ⟨11, _⟩ => ⟨S16x2048x2048, .i1⟩
  | .hbm, ⟨12, _⟩ => ⟨S_, .f32⟩
  | .hbm, ⟨13, _⟩ => ⟨S_, .f32⟩
  | .hbm, ⟨14, _⟩ => ⟨S16x2048x2048, .f32⟩
  | .hbm, ⟨15, _⟩ => ⟨S16x2048x2048, .f32⟩
  | .hbm, ⟨16, _⟩ => ⟨S_, .f32⟩
  | .hbm, ⟨17, _⟩ => ⟨S16x2048, .f32⟩
  | .hbm, ⟨18, _⟩ => ⟨S_, .f32⟩
  | .hbm, ⟨19, _⟩ => ⟨S16x2048, .f32⟩
  | .hbm, ⟨20, _⟩ => ⟨S16x2048, .f32⟩
  | .hbm, ⟨21, _⟩ => ⟨S16x2048x1, .f32⟩
  | .hbm, ⟨22, _⟩ => ⟨S16x2048x2048, .f32⟩
  | .hbm, ⟨23, _⟩ => ⟨S16x2048x2048, .f32⟩
  | .hbm, ⟨24, _⟩ => ⟨S16x2048x2048, .f32⟩
  | .hbm, ⟨25, _⟩ => ⟨S_, .f32⟩
  | .hbm, ⟨26, _⟩ => ⟨S16x2048, .f32⟩
  | .hbm, ⟨27, _⟩ => ⟨S16x2048x1, .f32⟩
  | .hbm, ⟨28, _⟩ => ⟨S16x2048x2048, .f32⟩
  | .hbm, ⟨29, _⟩ => ⟨S16x2048x2048, .f32⟩
  | .hbm, ⟨30, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]

variable [Facts₀]

def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.AttnRow.lean ====
/-
  One row of masked softmax attention, on the extended reals.

  A query row q (64 entries), the keys k (2048 rows of 64 entries) and a mask row w (2048 entries) give, for each key m,
  the score  (Σ_d q_d · k_{m,d}) · (1/8) · w_m.  A score that compares equal to zero is replaced by −∞.  The row is then
  shifted by its maximum (taken from −∞), exponentiated, and divided by the sum of the exponentials: the attention
  weights of the row.  The row of the output is the weights' combination of the value rows.

  Nothing here assumes the entries finite: every operation is the one the extended reals carry, so a row whose scores
  are all −∞ has whatever weights those operations give it, the same on both sides of a comparison.

  The only law of arithmetic stated here is the one that joins a quotient by 8 to a product with 1/8: the two float
  words 8.0 and 0.125 denote the reals 8 and 1/8, and on every extended real the quotient by a nonzero real is the
  product with its reciprocal.
-/
import Idealize.ShloMosaic.PureOps.Ideal.Laws

noncomputable section

namespace Cert.AttnRow

open Idealize.ShloMosaic

/-- The word of 0.125 denotes the real 1/8. -/
theorem eighth_word : Ideal.ofBits .f32 0x3E000000#32 = ((1 / 8 : ℝ) : EReal) := by
  simp [Ideal.ofBits, Ideal.ieee, -EReal.coe_mul]; norm_num

/-- The word of 8.0 denotes the real 8. -/
theorem eight_word : Ideal.ofBits .f32 0x41000000#32 = ((8 : ℝ) : EReal) := by
  simp [Ideal.ofBits, Ideal.ieee, -EReal.coe_mul]; norm_num

/-- On every extended real, the quotient by 8.0 is the product with 0.125. -/
theorem div_eight (x : EReal) :
    Ideal.div x (Ideal.ofBits .f32 0x41000000#32) = x * Ideal.ofBits .f32 0x3E000000#32 := by
  rw [eight_word, eighth_word]
  exact Ideal.div_coe (by norm_num) x

/-- A score that compares equal to zero becomes −∞; any other score is kept. -/
def fill (s : EReal) : EReal :=
  Scalar.select (FloatOps.cmpf (F := Ideal) (φ := .f32) .oeq s (Ideal.ofBits .f32 0x00000000#32))
    (Ideal.ofBits .f32 0xFF800000#32) s

variable (q : Fin 64 → EReal) (k : Fin 2048 → Fin 64 → EReal) (w : Fin 2048 → EReal)

/-- The masked score of the row against key m, zeros replaced by −∞. -/
def score (m : Fin 2048) : EReal :=
  fill ((∑ d : Fin 64, q d * k m d) * Ideal.ofBits .f32 0x3E000000#32 * w m)

/-- The maximum of a row x of 2048 entries, taken from −∞. -/
def rowTop (x : Fin 2048 → EReal) : EReal :=
  max (Ideal.ofBits .f32 0xFF800000#32) (Finset.univ.fold max (Ideal.ofBits .f32 0xFF800000#32) x)

/-- The softmax of a row x of 2048 entries: shifted by its maximum, exponentiated, divided by the sum. -/
def softmax (x : Fin 2048 → EReal) (m : Fin 2048) : EReal :=
  Ideal.div (Ideal.exp (x m - rowTop x)) (∑ m' : Fin 2048, Ideal.exp (x m' - rowTop x))

/-- The attention weights of the row. -/
def att (m : Fin 2048) : EReal := softmax (score q k w) m

/-- The row of the output: the weights' combination of the value rows v. -/
def out (v : Fin 2048 → Fin 64 → EReal) (d : Fin 64) : EReal := ∑ m : Fin 2048, att q k w m * v m d

end Cert.AttnRow

end
-- ==== Proof.LibRowsDot.lean ====
/-
  Two matrices contracted along their rows' common axis, read at an index, at the ideal instance.

  For a rank-2 contraction [a, K] · [b, K] → [a, b] (the left operand's axis 1 against the right operand's axis 1, no
  batch axis: the product of the left matrix with the transpose of the right), the accumulate-into-zero matrix product
  and the host's dot_general are both, at the result index (p, q), the sum over k < K of lhs (p, k) · rhs (q, k): the
  contracted shape has one axis of extent K, so the sum over its indices is a sum over Fin K, and the operand indices
  the contraction names at (p, q) and k are (p, k) and (q, k). The operands may be of any float formats (on extended
  reals a change of format is the identity). The four coordinate facts about a given dimension record (hl0, hl1, hr0,
  hr1) are taken as hypotheses: for a literal record each is a computation.
-/
import Idealize.ShloMosaic.PureOps.Ideal.Laws
import Idealize.ShloMosaic.Lib.ValueIdx

noncomputable section

namespace Cert.Lib.RowsDot

open Idealize.ShloMosaic Idealize.ShloMosaic.ValueIdx

variable {a K b : Nat} (D : DotDims (⟨2, ![a, K]⟩ : Shape) (⟨2, ![b, K]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (i 1).val)
  (hr1 : ∀ (i : (⟨2, ![a, b]⟩ : Shape).Idx) (q : D.contr.Idx), (D.rhsIdx i q 1).val = (q ⟨0, by omega⟩).val)

include hr hs hl0 hl1 hr0 hr1

/-- The sum over the contracted shape's indices of the products of the operands at the contraction's indices is the
    sum over k < K of lhs (p, k) · rhs (q, k). -/
theorem sum_contr (lhs : (⟨2, ![a, K]⟩ : Shape).Idx → EReal) (rhs : (⟨2, ![b, K]⟩ : Shape).Idx → EReal) (p : Fin a) (q : Fin b) :
    ∑ k : D.contr.Idx, lhs (D.lhsIdx (ix2 p q) k) * rhs (D.rhsIdx (ix2 p q) k) = ∑ k : Fin K, lhs (ix2 p k) * rhs (ix2 q k) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D K hr hs).symm k) = ix2 q k := funext fun ax => Fin.ext (by
    match ax with
    | ⟨0, _⟩ => exact hr0 _ _
    | ⟨1, _⟩ => exact (hr1 _ _).trans hk)
  rw [el, er]

/-- The matrix product accumulated into the zero splat, at (p, q), for operands of any float formats. -/
theorem matmul_zero_apply {φ₁ φ₂ : FTy} (prec : Option ContractPrecision) (lhs : FVec Ideal (⟨2, ![a, K]⟩ : Shape) φ₁)
    (rhs : FVec Ideal (⟨2, ![b, K]⟩ : Shape) φ₂) (p : Fin a) (q : Fin b) :
    matmul D prec lhs rhs (constant (⟨2, ![a, b]⟩ : Shape) .f32 0x00000000#32) (ix2 p q) = ∑ k : Fin K, lhs (ix2 p k) * rhs (ix2 q k) :=
  (Ideal.matmul_constant_zero_apply D prec lhs rhs (ix2 p q)).trans
    (sum_contr D hr hs hl0 hl1 hr0 hr1 (fun i => lhs i) (fun i => rhs i) p q)

/-- The host's dot_general, at (p, q), for operands of any float formats. -/
theorem dotGeneral_apply {φ₁ φ₂ : FTy} (prec : Option ContractPrecision) (lhs : FVec Ideal (⟨2, ![a, K]⟩ : Shape) φ₁)
    (rhs : FVec Ideal (⟨2, ![b, K]⟩ : Shape) φ₂) (p : Fin a) (q : Fin b) :
    Host.dotGeneral D prec lhs rhs (ix2 p q) = ∑ k : Fin K, lhs (ix2 p k) * rhs (ix2 q k) :=
  (Ideal.dotGeneral_apply D prec .single lhs rhs (ix2 p q)).trans
    (sum_contr D hr hs hl0 hl1 hr0 hr1 (fun i => lhs i) (fun i => rhs i) p q)

end Cert.Lib.RowsDot

end
-- ==== Proof.LibPlainDot.lean ====
/-
  A plain matrix product read at an index, at the ideal instance.

  For a rank-2 contraction [a, K] · [K, b] → [a, b] (the left operand's axis 1 against the right operand's axis 0, no batch
  axis), the accumulate-into-zero matrix product and the host's dot_general are both, at the result index (p, q), the sum
  over k < K of lhs (p, k) · rhs (k, q): the contracted shape has one axis of extent K, so the sum over its indices is a
  sum over Fin K, and the operand indices the contraction names at (p, q) and k are (p, k) and (k, q). The four coordinate
  facts about a given dimension record (hl0, hl1, hr0, hr1) are taken as hypotheses: for a literal record each is a
  computation.
-/
import Idealize.ShloMosaic.PureOps.Ideal.Laws
import Idealize.ShloMosaic.Lib.ValueIdx

noncomputable section

namespace Cert.Lib.PlainDot

open Idealize.ShloMosaic Idealize.ShloMosaic.ValueIdx

variable {a K b : Nat} (D : DotDims (⟨2, ![a, K]⟩ : Shape) (⟨2, ![K, b]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (q ⟨0, by omega⟩).val)
  (hr1 : ∀ (i : (⟨2, ![a, b]⟩ : Shape).Idx) (q : D.contr.Idx), (D.rhsIdx i q 1).val = (i 1).val)

include hr hs hl0 hl1 hr0 hr1

/-- The sum over the contracted shape's indices of the products of the operands at the contraction's indices is the
    sum over k < K of lhs (p, k) · rhs (k, q). -/
theorem sum_contr (lhs : (⟨2, ![a, K]⟩ : Shape).Idx → EReal) (rhs : (⟨2, ![K, b]⟩ : Shape).Idx → EReal) (p : Fin a) (q : Fin b) :
    ∑ k : D.contr.Idx, lhs (D.lhsIdx (ix2 p q) k) * rhs (D.rhsIdx (ix2 p q) k) = ∑ k : Fin K, lhs (ix2 p k) * rhs (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D K hr hs).symm k) = ix2 k q := funext fun ax => Fin.ext (by
    match ax with
    | ⟨0, _⟩ => exact (hr0 _ _).trans hk
    | ⟨1, _⟩ => exact hr1 _ _)
  rw [el, er]

/-- The matrix product accumulated into the zero splat, at (p, q). -/
theorem matmul_zero_apply (prec : Option ContractPrecision) (lhs : FVec Ideal (⟨2, ![a, K]⟩ : Shape) .f32) (rhs : FVec Ideal (⟨2, ![K, b]⟩ : Shape) .f32)
    (p : Fin a) (q : Fin b) :
    matmul D prec lhs rhs (constant (⟨2, ![a, b]⟩ : Shape) .f32 0x00000000#32) (ix2 p q) = ∑ k : Fin K, lhs (ix2 p k) * rhs (ix2 k q) :=
  (Ideal.matmul_constant_zero_apply D prec lhs rhs (ix2 p q)).trans (sum_contr D hr hs hl0 hl1 hr0 hr1 lhs rhs p q)

/-- The host's dot_general, at (p, q). -/
theorem dotGeneral_apply (prec : Option ContractPrecision) (lhs : FVec Ideal (⟨2, ![a, K]⟩ : Shape) .f32) (rhs : FVec Ideal (⟨2, ![K, b]⟩ : Shape) .f32)
    (p : Fin a) (q : Fin b) :
    Host.dotGeneral D prec lhs rhs (ix2 p q) = ∑ k : Fin K, lhs (ix2 p k) * rhs (ix2 k q) :=
  (Ideal.dotGeneral_apply D prec .single lhs rhs (ix2 p q)).trans (sum_contr D hr hs hl0 hl1 hr0 hr1 lhs rhs p q)

end Cert.Lib.PlainDot

end
-- ==== Proof.LibRowRead.lean ====
/-
  Vector operations read at an index, at the ideal instance, for the shapes of a row-blocked kernel: a column
  [a, 1] broadcast along the lanes, a vector [a] cast to a column [a, 1], the sum of a row of an [a, b] block,
  four [a, 32] pieces joined along the lanes into [a, 128], and the matrix product into the zero splat for
  operands of any float format (a change of format is the identity on extended reals).
-/
import Idealize.ShloMosaic.PureOps.Ideal.Laws
import Idealize.ShloMosaic.Lib.ValueIdx
import Idealize.ShloMosaic.Lib.ValueLayout
import Idealize.ShloMosaic.Lib.Pipeline.Value
import proofs.«168552_j62251255988379_2_alg».proof.Proof.LibPlainDot

noncomputable section

namespace Cert.Lib.RowRead

open Idealize.ShloMosaic Idealize.ShloMosaic.ValueIdx

variable {α : Type}

/-- A column [a, 1] broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The reduced index p with lane k put back is (p, k). -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The lane sum of an [a, b] block, at row p, is the sum over the b lanes of the block's row p. -/
theorem rowSum_apply {a b : ℕ} {φ : FTy} (src : FVec Ideal (⟨2, ![a, b]⟩ : Shape) φ) (acc : BitVec φ.bits)
    (h : (⟨2, ![a, b]⟩ : Shape).Reduces [1] (⟨1, ![a]⟩ : Shape)) (hφ : FKind.Formats φ) (hacc : acc = FKind.add.neutral φ hφ) (p : Fin a) :
    multiReduction .add [1] (⟨1, ![a]⟩ : Shape) src acc h hφ hacc (ix1 p) = ∑ k : Fin b, src (ix2 p k) := by
  rw [Ideal.multiReduction_add_single]
  exact Finset.sum_congr rfl fun k _ => by rw [lift_row]; rfl

/-- Four [a, 32] pieces joined along the lanes: lane 32 k + c of the result is lane c of piece k. -/
theorem concat4_apply {a : ℕ} (x0 x1 x2 x3 : (⟨2, ![a, 32]⟩ : Shape).Idx → α)
    (h : Shape.Concatenates (([⟨(⟨2, ![a, 32]⟩ : Shape), x0⟩, ⟨(⟨2, ![a, 32]⟩ : Shape), x1⟩, ⟨(⟨2, ![a, 32]⟩ : Shape), x2⟩, ⟨(⟨2, ![a, 32]⟩ : Shape), x3⟩] :
      List ((s : Shape) × (s.Idx → α))).map (·.1)) (⟨2, ![a, 128]⟩ : Shape) 1)
    (p : Fin a) (c : Fin 32) (k : Fin 4) (q : Fin 128) (hq : q.val = 32 * k.val + c.val) :
    concatenate (⟨2, ![a, 128]⟩ : Shape) 1 [⟨(⟨2, ![a, 32]⟩ : Shape), x0⟩, ⟨(⟨2, ![a, 32]⟩ : Shape), x1⟩, ⟨(⟨2, ![a, 32]⟩ : Shape), x2⟩, ⟨(⟨2, ![a, 32]⟩ : Shape), x3⟩] h (ix2 p q)
      = (![x0, x1, x2, x3] k) (ix2 p c) := by
  have hi : ∀ b : Fin (⟨2, ![a, 32]⟩ : Shape).rank, b.cast (rfl : (⟨2, ![a, 32]⟩ : Shape).rank = (⟨2, ![a, 128]⟩ : Shape).rank) ≠ (1 : Fin 2) →
      ((ix2 p c : (⟨2, ![a, 32]⟩ : Shape).Idx) b).val = ((ix2 p q : (⟨2, ![a, 128]⟩ : Shape).Idx) (b.cast rfl)).val := by
    intro b hb
    match b with
    | ⟨0, _⟩ => rfl
    | ⟨1, _⟩ => exact absurd rfl hb
  fin_cases k
  · exact concatenate_apply_piece 1 _ h _ 0 (by simp) _ x0 rfl rfl 0 rfl (ix2 p c) hi (by show 0 + c.val = q.val; simp at hq; omega)
  · exact concatenate_apply_piece 1 _ h _ 1 (by simp) _ x1 rfl rfl 32 rfl (ix2 p c) hi (by show 32 + c.val = q.val; simp at hq; omega)
  · exact concatenate_apply_piece 1 _ h _ 2 (by simp) _ x2 rfl rfl 64 rfl (ix2 p c) hi (by show 64 + c.val = q.val; simp at hq; omega)
  · exact concatenate_apply_piece 1 _ h _ 3 (by simp) _ x3 rfl rfl 96 rfl (ix2 p c) hi (by show 96 + c.val = q.val; simp at hq; omega)

section Dot

variable {a K b : Nat} (D : DotDims (⟨2, ![a, K]⟩ : Shape) (⟨2, ![K, b]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (q ⟨0, by omega⟩).val)
  (hr1 : ∀ (i : (⟨2, ![a, b]⟩ : Shape).Idx) (q : D.contr.Idx), (D.rhsIdx i q 1).val = (i 1).val)

include hr hs hl0 hl1 hr0 hr1

/-- The matrix product into the zero splat, at (p, q), for operands of any float formats: the sum over k < K of
    lhs (p, k) · rhs (k, q). -/
theorem matmul_zero_apply {φ₁ φ₂ : FTy} (prec : Option ContractPrecision) (lhs : FVec Ideal (⟨2, ![a, K]⟩ : Shape) φ₁)
    (rhs : FVec Ideal (⟨2, ![K, b]⟩ : Shape) φ₂) (p : Fin a) (q : Fin b) :
    matmul D prec lhs rhs (constant (⟨2, ![a, b]⟩ : Shape) .f32 0x00000000#32) (ix2 p q) = ∑ k : Fin K, lhs (ix2 p k) * rhs (ix2 k q) :=
  (Ideal.matmul_constant_zero_apply D prec lhs rhs (ix2 p q)).trans
    (Cert.Lib.PlainDot.sum_contr D hr hs hl0 hl1 hr0 hr1 (fun i => lhs i) (fun i => rhs i) p q)

end Dot

end Cert.Lib.RowRead

end
-- ==== Proof.LibRowMax.lean ====
/-
  The maximum of a row of a matrix, at the ideal instance.

  A float reduction with a maximum body over the lanes of an [a, b] matrix, read at row p, is the fold of max, from
  the value the accumulator's word denotes, over the b entries of row p: the reduced index p with lane k put back is
  (p, k), and max on the extended reals commutes and associates, so the fold does not depend on the order of the lanes.
-/
import Idealize.ShloMosaic.PureOps.Ideal.Laws
import Idealize.ShloMosaic.Lib.ValueIdx

noncomputable section

namespace Cert.Lib.RowMax

open Idealize.ShloMosaic Idealize.ShloMosaic.ValueIdx

/-- The reduced index p with lane k put back is (p, k). -/
theorem lift_lane {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The lane maximum of an [a, b] matrix, at row p, is the fold of max over the b entries of row p. -/
theorem rowMax_apply {a b : ℕ} {φ : FTy} (src : FVec Ideal (⟨2, ![a, b]⟩ : Shape) φ) (acc : BitVec φ.bits)
    (h : (⟨2, ![a, b]⟩ : Shape).Reduces [1] (⟨1, ![a]⟩ : Shape)) (hφ : FKind.Formats φ)
    (hacc : acc = FKind.maximumf.neutral φ hφ) (p : Fin a) :
    multiReduction .maximumf [1] (⟨1, ![a]⟩ : Shape) src acc h hφ hacc (ix1 p)
      = (Finset.univ : Finset (Fin b)).fold max (Ideal.ofBits φ acc) (fun k => src (ix2 p k)) := by
  rw [Ideal.multiReduction_maximumf_single]
  exact congrArg (fun f => Finset.fold max (Ideal.ofBits φ acc) f (Finset.univ : Finset (Fin b)))
    (funext fun k => by show src (h.lift (ix1 p) k) = src (ix2 p k); rw [lift_lane]; rfl)

end Cert.Lib.RowMax

end
-- ==== Proof.Body.lean ====
/-
  What the attention body computes from its blocks, read at an index, at the ideal instance.

  The body loads a query block [1, 512, 64], the batch's keys and values [1, 2048, 64] and a mask block [1, 512, 2048].
  Its attention block is computed in two stages. First the masked scores: the product of the query block with the
  transposed keys, scaled by 1/8, multiplied entry by entry with the mask, an entry that compares equal to zero replaced
  by −∞. Then the softmax of each row: the row's maximum (from −∞) is spread along the row and subtracted, the
  differences are exponentiated, and each is divided by the row's sum, spread along the row again. Row p of the result
  depends only on row p of the query and mask blocks and on all the keys, and it is the row function of attention
  (AttnRow.att) of them. The output block is the product of the attention block with the values: row p, column d is the
  row function AttnRow.out.
-/
import proofs.«168552_j62251255988379_2_alg».proof.Proof.Gen.KernelIdeal.Skeleton
import proofs.«168552_j62251255988379_2_alg».proof.Proof.AttnRow
import proofs.«168552_j62251255988379_2_alg».proof.Proof.LibRowsDot
import proofs.«168552_j62251255988379_2_alg».proof.Proof.LibRowRead
import proofs.«168552_j62251255988379_2_alg».proof.Proof.LibRowMax
import Idealize.ShloMosaic.Lib.Pipeline.Value
import Idealize.ShloMosaic.Lib.ValueIdx
import Idealize.ShloMosaic.Lib.ValueLayout
import Idealize.ShloMosaic.PureOps.Ideal.Laws

noncomputable section

namespace Cert.Body

open Idealize.ShloMosaic Idealize.ShloMosaic.ValueIdx Cert.KernelIdeal Cert.KernelIdeal.Gen
open Cert.Lib

variable {F : FTy → Type} [FloatOps F]

/-! ## The body's stages, as functions of the loaded blocks -/

/-- The scores before the zero test: (q · kᵀ) · 1/8 · mask, entry by entry. -/
def raw (P0 : Vec F S1x512x64 .f32) (P1 : Vec F S1x2048x64 .f32) (P2 : Vec F S1x512x2048 .f32) : FVec F S512x2048 .f32 :=
  mulf (mulf (matmul dot_S512x64_S2048x64_S512x2048_1_1_0_0_n_n (some .fp32) (shapeCast S512x64 P0 shapeCasts_S1x512x64_S512x64)
      (shapeCast S2048x64 P1 shapeCasts_S1x2048x64_S2048x64) (constant S512x2048 .f32 0x00000000#32))
    (broadcast S512x2048 (Scalar.ofBits .f32 0x3E000000#32))) (shapeCast S512x2048 P2 shapeCasts_S1x512x2048_S512x2048)

/-- The masked scores: an entry that compares equal to zero is replaced by −∞. -/
def scores (P0 : Vec F S1x512x64 .f32) (P1 : Vec F S1x2048x64 .f32) (P2 : Vec F S1x512x2048 .f32) : FVec F S512x2048 .f32 :=
  select (cmpf .oeq (raw P0 P1 P2) (broadcast S512x2048 (Scalar.ofBits .f32 0x00000000#32)))
    (broadcast S512x2048 (Scalar.ofBits .f32 0xFF800000#32)) (raw P0 P1 P2)

/-- Each row's maximum (from −∞), spread along the row. -/
def rowTops (x : FVec F S512x2048 .f32) : FVec F S512x2048 .f32 :=
  broadcastTo S512x2048 (shapeCast S512x1 (maximumf (broadcast S512 (Scalar.ofBits .f32 0xFF800000#32))
    (multiReduction .maximumf [1] S512 x 0xFF800000#32 reduces_S512x2048_S512 (.inl rfl) rfl)) shapeCasts_S512_S512x1)
    broadcasts_S512x1_S512x2048

/-- The exponentials of the entries shifted by their row's maximum. -/
def expRows (x : FVec F S512x2048 .f32) : FVec F S512x2048 .f32 := exp (subf x (rowTops x))

/-- Each row's sum, spread along the row. -/
def rowSums (e : FVec F S512x2048 .f32) : FVec F S512x2048 .f32 :=
  broadcastTo S512x2048 (shapeCast S512x1 (multiReduction .add [1] S512 e 0x00000000#32 reduces_S512x2048_S512 (.inl rfl) rfl)
    shapeCasts_S512_S512x1) broadcasts_S512x1_S512x2048

/-- The softmax of every row. -/
def softmaxRows (x : FVec F S512x2048 .f32) : FVec F S512x2048 .f32 := divf (expRows x) (rowSums (expRows x))

/-- The body's attention block is the softmax of the rows of its masked scores. -/
theorem pay2_eq (P0 : Vec F S1x512x64 .f32) (P1 : Vec F S1x2048x64 .f32) (P2 : Vec F S1x512x2048 .f32) :
    k0_pay2 P0 P1 P2 = softmaxRows (scores P0 P1 P2) := rfl

/-- The body's output block is the attention block times the values, with the leading unit axis put back. -/
theorem pay3_eq (P0 : Vec F S1x512x64 .f32) (P1 P2 : Vec F S1x2048x64 .f32) (P3 : Vec F S1x512x2048 .f32) :
    k0_pay3 P0 P1 P2 P3 = shapeCast S1x512x64 (matmul dot_S512x2048_S2048x64_S512x64_1_0_0_1_n_n (some .fp32) (k0_pay2 P0 P1 P3)
      (shapeCast S2048x64 P2 shapeCasts_S1x2048x64_S2048x64) (constant S512x64 .f32 0x00000000#32)) shapeCasts_S512x64_S1x512x64 := rfl

/-! ## The two contractions' coordinates -/

local notation "D1" => dot_S512x64_S2048x64_S512x2048_1_1_0_0_n_n
local notation "D2" => dot_S512x2048_S2048x64_S512x64_1_0_0_1_n_n

theorem d1_l0 (i : S512x2048.Idx) (q : (D1).contr.Idx) : ((D1).lhsIdx i q 0).val = (i 0).val := by
  unfold DotDims.lhsIdx
  rw [dif_neg (show ¬(0 : Fin S512x64.rank) ∈ (D1).lhsBatch by decide), dif_pos (show (0 : Fin S512x64.rank) ∈ (D1).lhsNonContracting by decide)]
  rfl
theorem d1_l1 (i : S512x2048.Idx) (q : (D1).contr.Idx) : ((D1).lhsIdx i q 1).val = (q ⟨0, by decide⟩).val :=
  (D1).lhsIdx_val_of_single rfl i q
theorem d1_r0 (i : S512x2048.Idx) (q : (D1).contr.Idx) : ((D1).rhsIdx i q 0).val = (i 1).val := by
  unfold DotDims.rhsIdx
  rw [dif_neg (show ¬(0 : Fin S2048x64.rank) ∈ (D1).rhsBatch by decide), dif_pos (show (0 : Fin S2048x64.rank) ∈ (D1).rhsNonContracting by decide)]
  rfl
theorem d1_r1 (i : S512x2048.Idx) (q : (D1).contr.Idx) : ((D1).rhsIdx i q 1).val = (q ⟨0, by decide⟩).val :=
  (D1).rhsIdx_val_of_single rfl i q

theorem d2_l0 (i : S512x64.Idx) (q : (D2).contr.Idx) : ((D2).lhsIdx i q 0).val = (i 0).val := by
  unfold DotDims.lhsIdx
  rw [dif_neg (show ¬(0 : Fin S512x2048.rank) ∈ (D2).lhsBatch by decide), dif_pos (show (0 : Fin S512x2048.rank) ∈ (D2).lhsNonContracting by decide)]
  rfl
theorem d2_l1 (i : S512x64.Idx) (q : (D2).contr.Idx) : ((D2).lhsIdx i q 1).val = (q ⟨0, by decide⟩).val :=
  (D2).lhsIdx_val_of_single rfl i q
theorem d2_r0 (i : S512x64.Idx) (q : (D2).contr.Idx) : ((D2).rhsIdx i q 0).val = (q ⟨0, by decide⟩).val :=
  (D2).rhsIdx_val_of_single rfl i q
theorem d2_r1 (i : S512x64.Idx) (q : (D2).contr.Idx) : ((D2).rhsIdx i q 1).val = (i 1).val := by
  unfold DotDims.rhsIdx
  rw [dif_neg (show ¬(1 : Fin S2048x64.rank) ∈ (D2).rhsBatch by decide), dif_pos (show (1 : Fin S2048x64.rank) ∈ (D2).rhsNonContracting by decide)]
  rfl

/-! ## The stages read at an index -/

/-- The exponential of a vector, at an index, is the exponential of the entry. -/
theorem exp_apply {s : Shape} {φ : FTy} (a : FVec Ideal s φ) (i : s.Idx) : exp a i = Ideal.exp (a i) := rfl

/-- The unmasked score of row p against key m: the dot product of the query row with the key row, times 1/8, times the mask entry. -/
theorem raw_apply (P0 : Vec Ideal S1x512x64 .f32) (P1 : Vec Ideal S1x2048x64 .f32) (P2 : Vec Ideal S1x512x2048 .f32)
    (p : Fin 512) (m : Fin 2048) :
    raw (F := Ideal) P0 P1 P2 (ix2 p m)
      = (∑ d : Fin 64, P0 (ix3 (0 : Fin 1) p d) * P1 (ix3 (0 : Fin 1) m d)) * Ideal.ofBits .f32 0x3E000000#32 * P2 (ix3 (0 : Fin 1) p m) := by
  show (matmul (D1) (some .fp32) (shapeCast S512x64 P0 shapeCasts_S1x512x64_S512x64) (shapeCast S2048x64 P1 shapeCasts_S1x2048x64_S2048x64)
      (constant S512x2048 .f32 0x00000000#32) (ix2 p m)) * Ideal.ofBits .f32 0x3E000000#32
      * (shapeCast S512x2048 P2 shapeCasts_S1x512x2048_S512x2048 (ix2 p m)) = _
  rw [RowsDot.matmul_zero_apply (D1) rfl rfl d1_l0 d1_l1 d1_r0 d1_r1, shapeCast_1ab_ab_apply]
  refine congrArg (fun s => s * Ideal.ofBits .f32 0x3E000000#32 * P2 (ix3 (0 : Fin 1) p m)) (Finset.sum_congr rfl fun d _ => ?_)
  rw [shapeCast_1ab_ab_apply, shapeCast_1ab_ab_apply]

/-- The masked score of row p against key m is the row function's score. -/
theorem scores_apply (P0 : Vec Ideal S1x512x64 .f32) (P1 : Vec Ideal S1x2048x64 .f32) (P2 : Vec Ideal S1x512x2048 .f32)
    (p : Fin 512) (m : Fin 2048) :
    scores (F := Ideal) P0 P1 P2 (ix2 p m)
      = AttnRow.score (fun d => P0 (ix3 (0 : Fin 1) p d)) (fun m' d => P1 (ix3 (0 : Fin 1) m' d)) (fun m' => P2 (ix3 (0 : Fin 1) p m')) m := by
  show AttnRow.fill (raw (F := Ideal) P0 P1 P2 (ix2 p m)) = _
  rw [raw_apply]
  rfl

/-- Row p's maximum, wherever along the row it is read. -/
theorem rowTops_apply (x : FVec Ideal S512x2048 .f32) (p : Fin 512) (c : Fin 2048) :
    rowTops (F := Ideal) x (ix2 p c) = AttnRow.rowTop (fun m' => x (ix2 p m')) := by
  unfold rowTops AttnRow.rowTop
  rw [RowRead.broadcastTo_a1_ab_apply, RowRead.shapeCast_a_a1_apply, maximumf_apply, broadcast_apply, Ideal.ofBits_def]
  exact congrArg (max (Ideal.ofBits .f32 0xFF800000#32)) (RowMax.rowMax_apply x _ _ _ _ p)

/-- The shifted exponential at (p, c). -/
theorem expRows_apply (x : FVec Ideal S512x2048 .f32) (p : Fin 512) (c : Fin 2048) :
    expRows (F := Ideal) x (ix2 p c) = Ideal.exp (x (ix2 p c) - AttnRow.rowTop (fun m' => x (ix2 p m'))) := by
  unfold expRows
  rw [exp_apply, subf_apply, rowTops_apply]

/-- Row p's sum, wherever along the row it is read. -/
theorem rowSums_apply (e : FVec Ideal S512x2048 .f32) (p : Fin 512) (c : Fin 2048) :
    rowSums (F := Ideal) e (ix2 p c) = ∑ m' : Fin 2048, e (ix2 p m') := by
  unfold rowSums
  rw [RowRead.broadcastTo_a1_ab_apply, RowRead.shapeCast_a_a1_apply]
  exact RowRead.rowSum_apply e _ _ _ _ p

/-- The softmax of the rows, at (p, m), is the softmax of row p at m. -/
theorem softmaxRows_apply (x : FVec Ideal S512x2048 .f32) (p : Fin 512) (m : Fin 2048) :
    softmaxRows (F := Ideal) x (ix2 p m) = AttnRow.softmax (fun m' => x (ix2 p m')) m := by
  unfold softmaxRows AttnRow.softmax
  rw [divf_apply, rowSums_apply, expRows_apply]
  exact congrArg (Ideal.div _) (Finset.sum_congr rfl fun m' _ => expRows_apply x p m')

/-- THE ATTENTION BLOCK at (p, m): the row function of row p of the query and mask blocks and of the keys. -/
theorem pay2_apply (P0 : Vec Ideal S1x512x64 .f32) (P1 : Vec Ideal S1x2048x64 .f32) (P2 : Vec Ideal S1x512x2048 .f32)
    (p : Fin 512) (m : Fin 2048) :
    k0_pay2 (F := Ideal) P0 P1 P2 (ix2 p m)
      = AttnRow.att (fun d => P0 (ix3 (0 : Fin 1) p d)) (fun m' d => P1 (ix3 (0 : Fin 1) m' d)) (fun m' => P2 (ix3 (0 : Fin 1) p m')) m := by
  rw [pay2_eq, softmaxRows_apply]
  unfold AttnRow.att
  exact congrArg (fun x => AttnRow.softmax x m) (funext fun m' => scores_apply P0 P1 P2 p m')

/-- THE OUTPUT BLOCK at (0, p, d): the attention weights of row p combined with column d of the values. -/
theorem pay3_apply (P0 : Vec Ideal S1x512x64 .f32) (P1 P2 : Vec Ideal S1x2048x64 .f32) (P3 : Vec Ideal S1x512x2048 .f32)
    (u : Fin 1) (p : Fin 512) (d : Fin 64) :
    k0_pay3 (F := Ideal) P0 P1 P2 P3 (ix3 u p d)
      = AttnRow.out (fun d' => P0 (ix3 (0 : Fin 1) p d')) (fun m' d' => P1 (ix3 (0 : Fin 1) m' d')) (fun m' => P3 (ix3 (0 : Fin 1) p m'))
          (fun m' d' => P2 (ix3 (0 : Fin 1) m' d')) d := by
  rw [pay3_eq, shapeCast_ab_1ab_apply, RowRead.matmul_zero_apply (D2) rfl rfl d2_l0 d2_l1 d2_r0 d2_r1]
  unfold AttnRow.out
  refine Finset.sum_congr rfl fun m' _ => ?_
  rw [pay2_apply, shapeCast_1ab_ab_apply]

end Cert.Body

end
-- ==== Proof.Whole.lean ====
/-
  From the blocks to the two result arrays.

  The grid has 16 × 4 points; point (b, g) works on batch b and on the query rows 512 g … 512 g + 511. Its query, mask,
  output and attention blocks are rows 512 g … of batch b; its key and value blocks are all of batch b. So the attention
  block it writes back is, entry by entry, the row function of attention of the argument arrays at batch b and row
  512 g + p, and likewise the output block: each point writes the restriction to its block of ONE function of the
  argument arrays (attAll, outAll). The blocks tile both result arrays (row n of batch b lies in the block of point
  (b, n / 512)), so after the run each result array is that function.
-/
import proofs.«168552_j62251255988379_2_alg».proof.Proof.Gen.KernelIdeal.Value
import proofs.«168552_j62251255988379_2_alg».proof.Proof.Body
import proofs.«168552_j62251255988379_2_alg».proof.Proof.AttnRow
import Idealize.ShloMosaic.Lib.Pipeline.Value
import Idealize.ShloMosaic.Lib.ValueIdx
import Idealize.ShloMosaic.Lib.ValueLayout

noncomputable section

namespace Cert.Whole

open Cert.KernelIdeal Cert.KernelIdeal.Gen Idealize.ShloMosaic Idealize.ShloMosaic.TcCoe Idealize.SL.Sem
open Idealize.ShloMosaic.ValueIdx
open Idealize.ShloMosaic.Pipeline (Dat)

/-! ## The two results as functions of the argument arrays -/

/-- The attention weights of query row n of batch b against key q. -/
def attAt (Q K : S16x2048x64.Idx → EReal) (M : S16x2048x2048.Idx → EReal) (b : Fin 16) (n q : Fin 2048) : EReal :=
  AttnRow.att (fun d => Q (ix3 b n d)) (fun m' d => K (ix3 b m' d)) (fun m' => M (ix3 b n m')) q

/-- Entry d of the output row n of batch b. -/
def outAt (Q K W : S16x2048x64.Idx → EReal) (M : S16x2048x2048.Idx → EReal) (b : Fin 16) (n : Fin 2048) (d : Fin 64) : EReal :=
  AttnRow.out (fun d' => Q (ix3 b n d')) (fun m' d' => K (ix3 b m' d')) (fun m' => M (ix3 b n m')) (fun m' d' => W (ix3 b m' d')) d

/-- The whole attention matrix. -/
def attAll (Q K : S16x2048x64.Idx → EReal) (M : S16x2048x2048.Idx → EReal) : S16x2048x2048.Idx → EReal :=
  fun i => attAt Q K M (i 0) (i 1) (i 2)

/-- The whole output. -/
def outAll (Q K W : S16x2048x64.Idx → EReal) (M : S16x2048x2048.Idx → EReal) : S16x2048x64.Idx → EReal :=
  fun i => outAt Q K W M (i 0) (i 1) (i 2)

theorem attAll_ix3 (Q K : S16x2048x64.Idx → EReal) (M : S16x2048x2048.Idx → EReal) (b : Fin 16) (n q : Fin 2048) :
    attAll Q K M (ix3 b n q) = attAt Q K M b n q := rfl

theorem outAll_ix3 (Q K W : S16x2048x64.Idx → EReal) (M : S16x2048x2048.Idx → EReal) (b : Fin 16) (n : Fin 2048) (d : Fin 64) :
    outAll Q K W M (ix3 b n d) = outAt Q K W M b n d := rfl

/-! ## One point's blocks, over variables

The blocks B are related to the arrays A by hypotheses: block row p is array row `row p` of batch b, and the key and
value blocks are all of batch b. -/

/-- The attention block a point computes is the whole attention matrix on the point's rows. -/
theorem att_block (A0 A1 : S16x2048x64.Idx → EReal) (A3 : S16x2048x2048.Idx → EReal)
    (B0 : Vec Ideal S1x512x64 .f32) (B1 : Vec Ideal S1x2048x64 .f32) (B3 : Vec Ideal S1x512x2048 .f32)
    (b : Fin 16) (row : Fin 512 → Fin 2048)
    (h0 : ∀ (p : Fin 512) (d : Fin 64), B0 (ix3 (0 : Fin 1) p d) = A0 (ix3 b (row p) d))
    (h1 : ∀ (m' : Fin 2048) (d : Fin 64), B1 (ix3 (0 : Fin 1) m' d) = A1 (ix3 b m' d))
    (h3 : ∀ (p : Fin 512) (m' : Fin 2048), B3 (ix3 (0 : Fin 1) p m') = A3 (ix3 b (row p) m'))
    (u : Fin 1) (p : Fin 512) (q : Fin 2048) :
    k0_pay1 (k0_pay2 (F := Ideal) B0 B1 B3) (ix3 u p q) = attAll A0 A1 A3 (ix3 b (row p) q) := by
  rw [Cert.KernelIdeal.Value.lay5_0_eq, shapeCast_ab_1ab_apply, Body.pay2_apply, attAll_ix3]
  unfold attAt
  rw [show (fun d => B0 (ix3 (0 : Fin 1) p d)) = (fun d => A0 (ix3 b (row p) d)) from funext (h0 p),
    show (fun m' d => B1 (ix3 (0 : Fin 1) m' d)) = (fun m' d => A1 (ix3 b m' d)) from funext fun m' => funext (h1 m'),
    show (fun m' => B3 (ix3 (0 : Fin 1) p m')) = (fun m' => A3 (ix3 b (row p) m')) from funext (h3 p)]

/-- The output block a point computes is the whole output on the point's rows. -/
theorem out_block (A0 A1 A2 : S16x2048x64.Idx → EReal) (A3 : S16x2048x2048.Idx → EReal)
    (B0 : Vec Ideal S1x512x64 .f32) (B1 B2 : Vec Ideal S1x2048x64 .f32) (B3 : Vec Ideal S1x512x2048 .f32)
    (b : Fin 16) (row : Fin 512 → Fin 2048)
    (h0 : ∀ (p : Fin 512) (d : Fin 64), B0 (ix3 (0 : Fin 1) p d) = A0 (ix3 b (row p) d))
    (h1 : ∀ (m' : Fin 2048) (d : Fin 64), B1 (ix3 (0 : Fin 1) m' d) = A1 (ix3 b m' d))
    (h2 : ∀ (m' : Fin 2048) (d : Fin 64), B2 (ix3 (0 : Fin 1) m' d) = A2 (ix3 b m' d))
    (h3 : ∀ (p : Fin 512) (m' : Fin 2048), B3 (ix3 (0 : Fin 1) p m') = A3 (ix3 b (row p) m'))
    (u : Fin 1) (p : Fin 512) (d : Fin 64) :
    k0_pay3 (F := Ideal) B0 B1 B2 B3 (ix3 u p d) = outAll A0 A1 A2 A3 (ix3 b (row p) d) := by
  rw [Body.pay3_apply, outAll_ix3]
  unfold outAt
  rw [show (fun d' => B0 (ix3 (0 : Fin 1) p d')) = (fun d' => A0 (ix3 b (row p) d')) from funext (h0 p),
    show (fun m' d' => B1 (ix3 (0 : Fin 1) m' d')) = (fun m' d' => A1 (ix3 b m' d')) from funext fun m' => funext (h1 m'),
    show (fun m' d' => B2 (ix3 (0 : Fin 1) m' d')) = (fun m' d' => A2 (ix3 b m' d')) from funext fun m' => funext (h2 m'),
    show (fun m' => B3 (ix3 (0 : Fin 1) p m')) = (fun m' => A3 (ix3 b (row p) m')) from funext (h3 p)]

/-! ## The printed index maps, decided over the 64 points -/

theorem hz3 : (![0, 0, 0] : Fin 3 → Nat) = fun _ => 0 := funext fun a => by fin_cases a <;> rfl

/-- Every window's block index in terms of the attention window's: the query, mask and output blocks move with it,
    the key and value blocks follow the batch only. -/
theorem idx_facts : ∀ t : Fin cfg0.N,
    win0_0.index t (0 : Fin 3) = win0_5.index t (0 : Fin 3) ∧ win0_0.index t (1 : Fin 3) = win0_5.index t (1 : Fin 3) ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) ∧ win0_3.index t (1 : Fin 3) = win0_5.index t (1 : Fin 3) ∧ win0_3.index t (2 : Fin 3) = 0
    ∧ win0_4.index t (0 : Fin 3) = win0_5.index t (0 : Fin 3) ∧ win0_4.index t (1 : Fin 3) = win0_5.index t (1 : Fin 3) ∧ win0_4.index t (2 : Fin 3) = 0
    ∧ win0_5.index t (0 : Fin 3) ≤ 15 ∧ win0_5.index t (1 : Fin 3) ≤ 3 ∧ win0_5.index t (2 : Fin 3) = 0 :=
  (by decide +kernel : ∀ t : Fin grid0.N, _)

/-- Every (batch, row group) is some point's. -/
theorem idx_onto : ∀ (q0 : Fin 16) (q1 : Fin 4), ∃ t : Fin cfg0.N, win0_5.index t = ![q0.val, q1.val, 0] :=
  (by decide +kernel : ∀ (q0 : Fin 16) (q1 : Fin 4), ∃ t : Fin grid0.N, win0_5.index t = ![q0.val, q1.val, 0])

/-! ## What each point writes back -/

variable (m : (ℓ : Loc nD τ sig) → Buf (Elt Ideal) ℓ) (ρ : Dev nD → PrngReg)

/-- WHAT POINT t WRITES BACK to the attention matrix is its block of the whole attention matrix of the argument arrays. -/
theorem flushed5_eq (c : Dev nD) (t : Fin cfg0.N) :
    (dats m 0 c).flushed 5 t
      = ((cfg0.win 5).blk t).view.read (Elt Ideal) (attAll (V m c main_arg0) (V m c main_arg1) (V m c main_arg3)) := by
  rw [Cert.KernelIdeal.Value.flushed5]
  unfold out0_5
  rw [View.canon_unit_zero hz3]
  simp only [View.ld_unit_zero (S := S1x512x64) hz3, View.ld_unit_zero (S := S1x2048x64) hz3, View.ld_unit_zero (S := S1x512x2048) hz3]
  obtain ⟨a00, a01, a02, a10, a11, a12, a20, a21, a22, a30, a31, a32, a40, a41, a42, b0, b1, b2⟩ := idx_facts t
  funext j
  obtain ⟨u, p, q, rfl⟩ : ∃ (u : Fin 1) (p : Fin 512) (q : Fin 2048), j = ix3 u p q := ⟨j 0, j 1, j 2, eq_ix3 j⟩
  have hrow : ∀ p : Fin 512, win0_5.index t (1 : Fin 3) * 512 + p.val < 2048 := fun p => by have := p.isLt; omega
  have hb : win0_5.index t (0 : Fin 3) < 16 := by omega
  have he : ((cfg0.win 5).blk t).view.emb (ix3 u p q)
      = ix3 (⟨win0_5.index t (0 : Fin 3), hb⟩ : Fin 16) (⟨win0_5.index t (1 : Fin 3) * 512 + p.val, hrow p⟩ : Fin 2048) q := by
    funext a; apply Fin.ext
    match a with
    | ⟨0, _⟩ => show win0_5.index t (0 : Fin 3) * 1 + 1 * u.val = win0_5.index t (0 : Fin 3); have := u.isLt; omega
    | ⟨1, _⟩ => show win0_5.index t (1 : Fin 3) * 512 + 1 * p.val = win0_5.index t (1 : Fin 3) * 512 + p.val; omega
    | ⟨2, _⟩ => show win0_5.index t (2 : Fin 3) * 2048 + 1 * q.val = q.val; omega
  show k0_pay1 (k0_pay2 (F := Ideal) (iblk m c 0 t) (iblk m c 1 t) (iblk m c 3 t)) (ix3 u p q)
    = attAll (V m c main_arg0) (V m c main_arg1) (V m c main_arg3) (((cfg0.win 5).blk t).view.emb (ix3 u p q))
  rw [he]
  refine att_block (V m c main_arg0) (V m c main_arg1) (V m c main_arg3) (iblk m c 0 t) (iblk m c 1 t) (iblk m c 3 t)
    ⟨win0_5.index t (0 : Fin 3), hb⟩ (fun p => ⟨win0_5.index t (1 : Fin 3) * 512 + p.val, hrow p⟩) ?_ ?_ ?_ u p q
  · intro p d
    show V m c main_arg0 (((cfg0.win 0).blk t).view.emb (ix3 (0 : Fin 1) p d)) = _
    refine congrArg (V m c main_arg0) (funext fun a => Fin.ext ?_)
    match a with
    | ⟨0, _⟩ => show win0_0.index t (0 : Fin 3) * 1 + 1 * 0 = win0_5.index t (0 : Fin 3); omega
    | ⟨1, _⟩ => show win0_0.index t (1 : Fin 3) * 512 + 1 * p.val = win0_5.index t (1 : Fin 3) * 512 + p.val; omega
    | ⟨2, _⟩ => show win0_0.index t (2 : Fin 3) * 64 + 1 * d.val = d.val; omega
  · intro m' d
    show V m c main_arg1 (((cfg0.win 1).blk t).view.emb (ix3 (0 : Fin 1) m' d)) = _
    refine congrArg (V m c main_arg1) (funext fun a => Fin.ext ?_)
    match a with
    | ⟨0, _⟩ => show win0_1.index t (0 : Fin 3) * 1 + 1 * 0 = win0_5.index t (0 : Fin 3); omega
    | ⟨1, _⟩ => show win0_1.index t (1 : Fin 3) * 2048 + 1 * m'.val = m'.val; omega
    | ⟨2, _⟩ => show win0_1.index t (2 : Fin 3) * 64 + 1 * d.val = d.val; omega
  · intro p m'
    show V m c main_arg3 (((cfg0.win 3).blk t).view.emb (ix3 (0 : Fin 1) p m')) = _
    refine congrArg (V m c main_arg3) (funext fun a => Fin.ext ?_)
    match a with
    | ⟨0, _⟩ => show win0_3.index t (0 : Fin 3) * 1 + 1 * 0 = win0_5.index t (0 : Fin 3); omega
    | ⟨1, _⟩ => show win0_3.index t (1 : Fin 3) * 512 + 1 * p.val = win0_5.index t (1 : Fin 3) * 512 + p.val; omega
    | ⟨2, _⟩ => show win0_3.index t (2 : Fin 3) * 2048 + 1 * m'.val = m'.val; omega

/-- WHAT POINT t WRITES BACK to the output is its block of the whole output of the argument arrays. -/
theorem flushed4_eq (c : Dev nD) (t : Fin cfg0.N) :
    (dats m 0 c).flushed 4 t
      = ((cfg0.win 4).blk t).view.read (Elt Ideal) (outAll (V m c main_arg0) (V m c main_arg1) (V m c main_arg2) (V m c main_arg3)) := by
  rw [Cert.KernelIdeal.Value.flushed4]
  unfold out0_4
  rw [View.canon_unit_zero hz3]
  simp only [View.ld_unit_zero (S := S1x512x64) hz3, View.ld_unit_zero (S := S1x2048x64) hz3, View.ld_unit_zero (S := S1x512x2048) hz3]
  obtain ⟨a00, a01, a02, a10, a11, a12, a20, a21, a22, a30, a31, a32, a40, a41, a42, b0, b1, b2⟩ := idx_facts t
  funext j
  obtain ⟨u, p, d, rfl⟩ : ∃ (u : Fin 1) (p : Fin 512) (d : Fin 64), j = ix3 u p d := ⟨j 0, j 1, j 2, eq_ix3 j⟩
  have hrow : ∀ p : Fin 512, win0_5.index t (1 : Fin 3) * 512 + p.val < 2048 := fun p => by have := p.isLt; omega
  have hb : win0_5.index t (0 : Fin 3) < 16 := by omega
  have he : ((cfg0.win 4).blk t).view.emb (ix3 u p d)
      = ix3 (⟨win0_5.index t (0 : Fin 3), hb⟩ : Fin 16) (⟨win0_5.index t (1 : Fin 3) * 512 + p.val, hrow p⟩ : Fin 2048) d := by
    funext a; apply Fin.ext
    match a with
    | ⟨0, _⟩ => show win0_4.index t (0 : Fin 3) * 1 + 1 * u.val = win0_5.index t (0 : Fin 3); have := u.isLt; omega
    | ⟨1, _⟩ => show win0_4.index t (1 : Fin 3) * 512 + 1 * p.val = win0_5.index t (1 : Fin 3) * 512 + p.val; omega
    | ⟨2, _⟩ => show win0_4.index t (2 : Fin 3) * 64 + 1 * d.val = d.val; omega
  show k0_pay3 (F := Ideal) (iblk m c 0 t) (iblk m c 1 t) (iblk m c 2 t) (iblk m c 3 t) (ix3 u p d)
    = outAll (V m c main_arg0) (V m c main_arg1) (V m c main_arg2) (V m c main_arg3) (((cfg0.win 4).blk t).view.emb (ix3 u p d))
  rw [he]
  refine out_block (V m c main_arg0) (V m c main_arg1) (V m c main_arg2) (V m c main_arg3)
    (iblk m c 0 t) (iblk m c 1 t) (iblk m c 2 t) (iblk m c 3 t)
    ⟨win0_5.index t (0 : Fin 3), hb⟩ (fun p => ⟨win0_5.index t (1 : Fin 3) * 512 + p.val, hrow p⟩) ?_ ?_ ?_ ?_ u p d
  · intro p d
    show V m c main_arg0 (((cfg0.win 0).blk t).view.emb (ix3 (0 : Fin 1) p d)) = _
    refine congrArg (V m c main_arg0) (funext fun a => Fin.ext ?_)
    match a with
    | ⟨0, _⟩ => show win0_0.index t (0 : Fin 3) * 1 + 1 * 0 = win0_5.index t (0 : Fin 3); omega
    | ⟨1, _⟩ => show win0_0.index t (1 : Fin 3) * 512 + 1 * p.val = win0_5.index t (1 : Fin 3) * 512 + p.val; omega
    | ⟨2, _⟩ => show win0_0.index t (2 : Fin 3) * 64 + 1 * d.val = d.val; omega
  · intro m' d
    show V m c main_arg1 (((cfg0.win 1).blk t).view.emb (ix3 (0 : Fin 1) m' d)) = _
    refine congrArg (V m c main_arg1) (funext fun a => Fin.ext ?_)
    match a with
    | ⟨0, _⟩ => show win0_1.index t (0 : Fin 3) * 1 + 1 * 0 = win0_5.index t (0 : Fin 3); omega
    | ⟨1, _⟩ => show win0_1.index t (1 : Fin 3) * 2048 + 1 * m'.val = m'.val; omega
    | ⟨2, _⟩ => show win0_1.index t (2 : Fin 3) * 64 + 1 * d.val = d.val; omega
  · intro m' d
    show V m c main_arg2 (((cfg0.win 2).blk t).view.emb (ix3 (0 : Fin 1) m' d)) = _
    refine congrArg (V m c main_arg2) (funext fun a => Fin.ext ?_)
    match a with
    | ⟨0, _⟩ => show win0_2.index t (0 : Fin 3) * 1 + 1 * 0 = win0_5.index t (0 : Fin 3); omega
    | ⟨1, _⟩ => show win0_2.index t (1 : Fin 3) * 2048 + 1 * m'.val = m'.val; omega
    | ⟨2, _⟩ => show win0_2.index t (2 : Fin 3) * 64 + 1 * d.val = d.val; omega
  · intro p m'
    show V m c main_arg3 (((cfg0.win 3).blk t).view.emb (ix3 (0 : Fin 1) p m')) = _
    refine congrArg (V m c main_arg3) (funext fun a => Fin.ext ?_)
    match a with
    | ⟨0, _⟩ => show win0_3.index t (0 : Fin 3) * 1 + 1 * 0 = win0_5.index t (0 : Fin 3); omega
    | ⟨1, _⟩ => show win0_3.index t (1 : Fin 3) * 512 + 1 * p.val = win0_5.index t (1 : Fin 3) * 512 + p.val; omega
    | ⟨2, _⟩ => show win0_3.index t (2 : Fin 3) * 2048 + 1 * m'.val = m'.val; omega

/-! ## The blocks tile the result arrays -/

/-- An index of the attention matrix is in point t's block iff each coordinate is in the block's range on its axis. -/
theorem mem_blk5 (t : Fin cfg0.N) (i : S16x2048x2048.Idx) :
    i ∈ ((cfg0.win 5).blk t).view.set ↔ ∀ a : Fin 3, win0_5.index t a * S1x512x2048.size a ≤ (i a).val
      ∧ (i a).val < win0_5.index t a * S1x512x2048.size a + S1x512x2048.size a := by
  show i ∈ ((View.whole main_v0_1).slice (win0_5.rect t)).set ↔ _
  rw [View.set_slice_whole, Rect.mem_set_unit]
  exact Iff.rfl

/-- An index of the output is in point t's block iff each coordinate is in the block's range on its axis. -/
theorem mem_blk4 (t : Fin cfg0.N) (i : S16x2048x64.Idx) :
    i ∈ ((cfg0.win 4).blk t).view.set ↔ ∀ a : Fin 3, win0_4.index t a * S1x512x64.size a ≤ (i a).val
      ∧ (i a).val < win0_4.index t a * S1x512x64.size a + S1x512x64.size a := by
  show i ∈ ((View.whole main_v0_0).slice (win0_4.rect t)).set ↔ _
  rw [View.set_slice_whole, Rect.mem_set_unit]
  exact Iff.rfl

/-- Every entry of the attention matrix is in some point's block: row n of batch b is in the block of point (b, n / 512). -/
theorem cover5 (i : S16x2048x2048.Idx) :
    ∃ t : Fin cfg0.N, (cfg0.win 5).flush t = true ∧ i ∈ ((cfg0.win 5).blk t).view.set := by
  have hi0 : (i 0).val < 16 := (i 0).isLt
  have hi1 : (i 1).val < 2048 := (i 1).isLt
  have hi2 : (i 2).val < 2048 := (i 2).isLt
  obtain ⟨t, ht⟩ := idx_onto ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 2048 ≤ (i 2).val ∧ (i 2).val < win0_5.index t (2 : Fin 3) * 2048 + 2048; omega

/-- Every entry of the output is in some point's block. -/
theorem cover4 (i : S16x2048x64.Idx) :
    ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  have q0 : win0_5.index t (0 : Fin 3) = (i 0).val := congrFun ht 0
  have q1 : win0_5.index t (1 : Fin 3) = (i 1).val / 512 := congrFun ht 1
  obtain ⟨a00, a01, a02, a10, a11, a12, a20, a21, a22, a30, a31, a32, a40, a41, a42, b0, b1, b2⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 64 ≤ (i 2).val ∧ (i 2).val < win0_4.index t (2 : Fin 3) * 64 + 64; omega

/-! ## The result arrays after the run -/

/-- The attention matrix after the run is attAll of the argument arrays. -/
theorem final5 (c : Dev nD) :
    (dats m 0 c).arrAt 5 cfg0.N = attAll (V m c main_arg0) (V m c main_arg1) (V m c main_arg3) :=
  (dats m 0 c).arrAt_eq_of_cover 5 (attAll (V m c main_arg0) (V m c main_arg1) (V m c main_arg3))
    (fun t _ => flushed5_eq m c t) cover5

/-- The output after the run is outAll of the argument arrays. -/
theorem final4 (c : Dev nD) :
    (dats m 0 c).arrAt 4 cfg0.N = outAll (V m c main_arg0) (V m c main_arg1) (V m c main_arg2) (V m c main_arg3) :=
  (dats m 0 c).arrAt_eq_of_cover 4 (outAll (V m c main_arg0) (V m c main_arg1) (V m c main_arg2) (V m c main_arg3))
    (fun t _ => flushed4_eq m c t) cover4

/-- The kernel's run: every weakly fair execution terminates with the output at outAll and the attention matrix at
    attAll of the argument arrays, which end unchanged. -/
theorem run : θ_run defs (onTc (τ := τ) (main (F := Ideal))) ⟨m, fun _ => 0, ρ⟩ fun r => ∀ c : Dev nD,
      r.2.mem ((c : Thread nD τ).loc main_v0_0)
        = outAll (m ((c : Thread nD τ).loc main_arg0)) (m ((c : Thread nD τ).loc main_arg1)) (m ((c : Thread nD τ).loc main_arg2)) (m ((c : Thread nD τ).loc main_arg3))
      ∧ r.2.mem ((c : Thread nD τ).loc main_v0_1)
        = attAll (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Cert.KernelIdeal.Value.run_blocks m ρ)

end Cert.Whole

end
-- ==== Proof.RefSide.lean ====
/-
  The reference side of the comparison, read one row at a time.

  The reference computes, for a batch b and a query row n, the scores of the row against every key, masks them,
  takes the softmax along the keys, and combines the value rows with the resulting weights.  Each of its stages is
  read here at explicit coordinates (b, n, m), and the result is the row-wise attention function of the
  specification applied to row n of the queries, the keys and values of batch b, and row n of the mask.

  The one place where the two texts differ is the scaling of the scores: the reference divides the inner product
  by 8, the specification multiplies it by 1/8; on the extended reals these agree.
-/
import proofs.«168552_j62251255988379_2_alg».proof.Proof.Gen.ReferenceIdeal.Read
import proofs.«168552_j62251255988379_2_alg».proof.Proof.AttnRow
import Idealize.ShloMosaic.Lib.ValueIdx
import Idealize.ShloMosaic.PureOps.Ideal.Laws

noncomputable section

namespace Cert.RefSide

open Idealize.ShloMosaic Idealize.ShloMosaic.ValueIdx Cert.ReferenceIdeal Cert.ReferenceIdeal.Gen Cert.ReferenceIdeal.Read

/-- Queries, keys and values: 16 batches of 2048 rows of 64 entries. -/
abbrev Rows : Type := (⟨S16x2048x64, .f32⟩ : BufTy).Contents (Elt Ideal)
/-- The mask: 16 batches of 2048 rows of 2048 entries. -/
abbrev Mask : Type := (⟨S16x2048x2048, .f32⟩ : BufTy).Contents (Elt Ideal)

/-! ## The scores -/

/-- The left operand of the first product is read at (b, n, k). -/
theorem lidx_v0 (b : Fin 16) (n m : Fin 2048) (k : Fin 64) : lidx_main_v0 (ix3 b n m) k = ix3 b n k := by
  funext a; apply Fin.ext
  match a with | ⟨0, _⟩ => rfl | ⟨1, _⟩ => rfl | ⟨2, _⟩ => rfl

/-- The right operand of the first product is read at (b, m, k). -/
theorem ridx_v0 (b : Fin 16) (n m : Fin 2048) (k : Fin 64) : ridx_main_v0 (ix3 b n m) k = ix3 b m k := by
  funext a; apply Fin.ext
  match a with | ⟨0, _⟩ => rfl | ⟨1, _⟩ => rfl | ⟨2, _⟩ => rfl

/-- The inner product of query row n with key row m, in batch b. -/
theorem v0_at (x0 x1 : Rows) (b : Fin 16) (n m : Fin 2048) :
    val_main_v0 (F := Ideal) x0 x1 (ix3 b n m) = ∑ k : Fin 64, x0 (ix3 b n k) * x1 (ix3 b m k) := by
  rw [val_main_v0_apply]
  refine Finset.sum_congr rfl fun k _ => ?_
  rw [lidx_v0, ridx_v0]

/-- The scaled and masked score before the zeros are replaced: the quotient by 8 is the product with 1/8. -/
theorem v3_at (x0 x1 : Rows) (x3 : Mask) (b : Fin 16) (n m : Fin 2048) :
    val_main_v3 (F := Ideal) x0 x1 x3 (ix3 b n m)
      = (∑ k : Fin 64, x0 (ix3 b n k) * x1 (ix3 b m k)) * Ideal.ofBits .f32 0x3E000000#32 * x3 (ix3 b n m) := by
  rw [val_main_v3_apply, val_main_v2_apply, val_main_v1_apply, val_main_cst_apply, v0_at]
  show Ideal.div _ (Ideal.ofBits .f32 0x41000000#32) * _ = _
  rw [Cert.AttnRow.div_eight]

/-- The score of query row n against key m, zeros replaced by −∞. -/
theorem v6_at (x0 x1 : Rows) (x3 : Mask) (b : Fin 16) (n m : Fin 2048) :
    val_main_v6 (F := Ideal) x0 x1 x3 (ix3 b n m)
      = Cert.AttnRow.score (fun d => x0 (ix3 b n d)) (fun m' d => x1 (ix3 b m' d)) (fun m' => x3 (ix3 b n m')) m := by
  rw [val_main_v6_apply, val_main_v5_apply, val_main_v4_apply, val_main_cst_0_apply, val_main_call0_v1_apply,
    val_main_call0_v0_apply, val_main_cst_1_apply, v3_at]
  rfl

/-! ## The row maximum -/

/-- The reduced index (b, n) with the key coordinate k put back is (b, n, k). -/
theorem lift_ix3 (h : S16x2048x2048.Reduces [2] S16x2048) (b : Fin 16) (n : Fin 2048)
    (k : Fin (S16x2048x2048.size 2)) : h.lift (ix2 b n) k = ix3 b n (⟨k.val, k.isLt⟩ : Fin 2048) := by
  funext c; apply Fin.ext
  fin_cases c <;> rfl

/-- The reduce with a maximum body along the keys, at (b, n): the fold of max from −∞ over the scores of the row. -/
theorem v7_at (x0 x1 : Rows) (x3 : Mask) (b : Fin 16) (n : Fin 2048) :
    val_main_v7 (F := Ideal) x0 x1 x3 (ix2 b n)
      = (Finset.univ : Finset (Fin 2048)).fold max (Ideal.ofBits .f32 0xFF800000#32)
          (fun k => val_main_v6 (F := Ideal) x0 x1 x3 (ix3 b n k)) := by
  unfold val_main_v7
  have h : S16x2048x2048.Reduces [2] S16x2048 := by decide
  rw [Host.reduce_eq_fold_single FloatOps.maximumf _ _ reducesTo_S16x2048x2048_S16x2048_d2 h h_S_]
  have hf : (val_main_v6 (F := Ideal) x0 x1 x3 ∘ h.lift (ix2 b n))
      = fun k : Fin 2048 => val_main_v6 (F := Ideal) x0 x1 x3 (ix3 b n k) :=
    funext fun k => congrArg (val_main_v6 (F := Ideal) x0 x1 x3) (lift_ix3 h b n k)
  exact congrArg (fun f => Finset.fold max (Ideal.ofBits .f32 0xFF800000#32) f (Finset.univ : Finset (Fin 2048))) hf

/-- The maximum with −∞ of that fold is the row's top. -/
theorem v9_at (x0 x1 : Rows) (x3 : Mask) (b : Fin 16) (n : Fin 2048) :
    val_main_v9 (F := Ideal) x0 x1 x3 (ix2 b n)
      = Cert.AttnRow.rowTop (fun m' => val_main_v6 (F := Ideal) x0 x1 x3 (ix3 b n m')) := by
  rw [val_main_v9_apply, val_main_v8_apply, val_main_cst_3_apply, v7_at]
  rfl

/-- The top of the row of scores of query row n in batch b. -/
theorem v9_score (x0 x1 : Rows) (x3 : Mask) (b : Fin 16) (n : Fin 2048) :
    val_main_v9 (F := Ideal) x0 x1 x3 (ix2 b n)
      = Cert.AttnRow.rowTop
          (Cert.AttnRow.score (fun d => x0 (ix3 b n d)) (fun m' d => x1 (ix3 b m' d)) (fun m' => x3 (ix3 b n m'))) := by
  rw [v9_at]
  exact congrArg Cert.AttnRow.rowTop (funext fun m' => v6_at x0 x1 x3 b n m')

/-! ## The exponentials and their sum -/

/-- The row's top is read from its copy with one column, at (b, n, 0). -/
theorem idx_v11 (b : Fin 16) (n m : Fin 2048) : idx_main_v11 (ix3 b n m) = ix3 b n (0 : Fin 1) := by
  funext a; apply Fin.ext
  match a with | ⟨0, _⟩ => rfl | ⟨1, _⟩ => rfl | ⟨2, _⟩ => rfl

/-- The copy with one column is read at (b, n). -/
theorem idx_v10 (b : Fin 16) (n : Fin 2048) : idx_main_v10 (ix3 b n (0 : Fin 1)) = ix2 b n := by
  funext a; apply Fin.ext
  match a with | ⟨0, _⟩ => rfl | ⟨1, _⟩ => rfl

/-- The exponential of the score shifted by the row's top. -/
theorem v13_at (x0 x1 : Rows) (x3 : Mask) (b : Fin 16) (n m : Fin 2048) :
    val_main_v13 (F := Ideal) x0 x1 x3 (ix3 b n m)
      = Ideal.exp
          (Cert.AttnRow.score (fun d => x0 (ix3 b n d)) (fun m' d => x1 (ix3 b m' d)) (fun m' => x3 (ix3 b n m')) m
            - Cert.AttnRow.rowTop
                (Cert.AttnRow.score (fun d => x0 (ix3 b n d)) (fun m' d => x1 (ix3 b m' d)) (fun m' => x3 (ix3 b n m')))) := by
  rw [val_main_v13_apply, val_main_v12_apply, val_main_v11_apply, idx_v11, val_main_v10_apply, idx_v10, v9_score, v6_at]
  rfl

/-- The sum along the keys reads the exponentials at (b, n, k). -/
theorem idx_v14 (b : Fin 16) (n k : Fin 2048) : idx_main_v14 (ix2 b n) k = ix3 b n k := by
  funext a; apply Fin.ext
  match a with | ⟨0, _⟩ => rfl | ⟨1, _⟩ => rfl | ⟨2, _⟩ => rfl

/-- The sum of the row's exponentials: the initial value is the zero word, which denotes 0. -/
theorem v14_at (x0 x1 : Rows) (x3 : Mask) (b : Fin 16) (n : Fin 2048) :
    val_main_v14 (F := Ideal) x0 x1 x3 (ix2 b n)
      = ∑ m' : Fin 2048, Ideal.exp
          (Cert.AttnRow.score (fun d => x0 (ix3 b n d)) (fun m' d => x1 (ix3 b m' d)) (fun m' => x3 (ix3 b n m')) m'
            - Cert.AttnRow.rowTop
                (Cert.AttnRow.score (fun d => x0 (ix3 b n d)) (fun m' d => x1 (ix3 b m' d)) (fun m' => x3 (ix3 b n m')))) := by
  rw [val_main_v14_apply, val_main_cst_4_apply]
  show Ideal.ofBits .f32 0x00000000#32 + _ = _
  rw [Ideal.ofBits_zero_f32, zero_add]
  refine Finset.sum_congr rfl fun k _ => ?_
  rw [idx_v14, v13_at]

/-! ## The attention weights and the output -/

/-- The sum is read from its copy with one column, at (b, n, 0). -/
theorem idx_v16 (b : Fin 16) (n m : Fin 2048) : idx_main_v16 (ix3 b n m) = ix3 b n (0 : Fin 1) := by
  funext a; apply Fin.ext
  match a with | ⟨0, _⟩ => rfl | ⟨1, _⟩ => rfl | ⟨2, _⟩ => rfl

/-- The copy with one column is read at (b, n). -/
theorem idx_v15 (b : Fin 16) (n : Fin 2048) : idx_main_v15 (ix3 b n (0 : Fin 1)) = ix2 b n := by
  funext a; apply Fin.ext
  match a with | ⟨0, _⟩ => rfl | ⟨1, _⟩ => rfl

/-- The reference's weights at (b, n, m) are the attention weights of query row n of batch b against key m. -/
theorem ref_att (x0 x1 : (⟨S16x2048x64, .f32⟩ : BufTy).Contents (Elt Ideal))
    (x3 : (⟨S16x2048x2048, .f32⟩ : BufTy).Contents (Elt Ideal)) (b : Fin 16) (n m : Fin 2048) :
    val_main_v17 (F := Ideal) x0 x1 x3 (ix3 b n m)
      = Cert.AttnRow.att (fun d => x0 (ix3 b n d)) (fun m' d => x1 (ix3 b m' d)) (fun m' => x3 (ix3 b n m')) m := by
  rw [val_main_v17_apply, val_main_v16_apply, idx_v16, val_main_v15_apply, idx_v15, v14_at, v13_at]
  rfl

/-- The left operand of the last product, the weights, is read at (b, n, k). -/
theorem lidx_v18 (b : Fin 16) (n : Fin 2048) (d : Fin 64) (k : Fin 2048) :
    lidx_main_v18 (ix3 b n d) k = ix3 b n k := by
  funext a; apply Fin.ext
  match a with | ⟨0, _⟩ => rfl | ⟨1, _⟩ => rfl | ⟨2, _⟩ => rfl

/-- The right operand of the last product, the values, is read at (b, k, d). -/
theorem ridx_v18 (b : Fin 16) (n : Fin 2048) (d : Fin 64) (k : Fin 2048) :
    ridx_main_v18 (ix3 b n d) k = ix3 b k d := by
  funext a; apply Fin.ext
  match a with | ⟨0, _⟩ => rfl | ⟨1, _⟩ => rfl | ⟨2, _⟩ => rfl

/-- The reference's output at (b, n, d) is entry d of the weights' combination of the value rows of batch b. -/
theorem ref_out (x0 x1 x2 : (⟨S16x2048x64, .f32⟩ : BufTy).Contents (Elt Ideal))
    (x3 : (⟨S16x2048x2048, .f32⟩ : BufTy).Contents (Elt Ideal)) (b : Fin 16) (n : Fin 2048) (d : Fin 64) :
    val_main_v18 (F := Ideal) x0 x1 x2 x3 (ix3 b n d)
      = Cert.AttnRow.out (fun d' => x0 (ix3 b n d')) (fun m' d' => x1 (ix3 b m' d')) (fun m' => x3 (ix3 b n m'))
          (fun m' d' => x2 (ix3 b m' d')) d := by
  rw [val_main_v18_apply]
  unfold Cert.AttnRow.out
  refine Finset.sum_congr rfl fun k _ => ?_
  rw [lidx_v18, ridx_v18, ref_att]

end Cert.RefSide

end
-- ==== Proof.lean ====
/-
  The claim: a tiled attention kernel and its plain reference compute the same extended reals.

  Both programs take Query, Key, Value [16, 2048, 64] and a mask [16, 2048, 2048] and return the output [16, 2048, 64] and
  the attention matrix [16, 2048, 2048]. Row n of batch b of the attention matrix is the row function of attention
  (AttnRow.att) of Query's row (b, n), Key's batch b and the mask's row (b, n): scores (q · k) · 1/8 · mask, a score equal to
  zero replaced by −∞, then the softmax of the row; the output row is the weights' combination of Value's batch b.

  The kernel computes this a block of 512 rows at a time over a 16 × 4 grid, and its blocks tile the results, so after
  its run each result array is that function of the argument arrays (Whole.run, over the generated frame and value leg
  of the kernel). The reference computes the whole arrays at once, dividing the scores by 8 where the kernel multiplies by
  1/8: on every extended real these are one operation, and everything else is the same operation on both sides, so its
  generated run ends at the same function (RefSide.ref_out, RefSide.ref_att, over the generated read-at-an-index lemmas).
  No step uses that the inputs are finite: sums are only regrouped, never distributed over.

  The three frames are the generated ones (the reference's is its generated run with the results dropped), and the
  idealization rewrote nothing, so its conjunct is trivial.
-/
import proofs.«168552_j62251255988379_2_alg».proof.Defs
import proofs.«168552_j62251255988379_2_alg».proof.Proof.Gen.Kernel
import proofs.«168552_j62251255988379_2_alg».proof.Proof.Gen.Kernel.Skeleton
import proofs.«168552_j62251255988379_2_alg».proof.Proof.Gen.Kernel.Launch
import proofs.«168552_j62251255988379_2_alg».proof.Proof.Gen.Kernel.Points
import proofs.«168552_j62251255988379_2_alg».proof.Proof.Gen.Kernel.Frame
import proofs.«168552_j62251255988379_2_alg».proof.Proof.Gen.KernelIdeal
import proofs.«168552_j62251255988379_2_alg».proof.Proof.Gen.KernelIdeal.Skeleton
import proofs.«168552_j62251255988379_2_alg».proof.Proof.Gen.KernelIdeal.Launch
import proofs.«168552_j62251255988379_2_alg».proof.Proof.Gen.KernelIdeal.Points
import proofs.«168552_j62251255988379_2_alg».proof.Proof.Gen.KernelIdeal.Frame
import proofs.«168552_j62251255988379_2_alg».proof.Proof.Gen.ReferenceIdeal
import proofs.«168552_j62251255988379_2_alg».proof.Proof.Gen.Pre_finite_inputs
import proofs.«168552_j62251255988379_2_alg».proof.Proof.Gen.KernelIdeal.Value
import proofs.«168552_j62251255988379_2_alg».proof.Proof.Gen.ReferenceIdeal.Run
import proofs.«168552_j62251255988379_2_alg».proof.Proof.Gen.ReferenceIdeal.Read
import proofs.«168552_j62251255988379_2_alg».proof.Proof.Whole
import proofs.«168552_j62251255988379_2_alg».proof.Proof.RefSide
import Idealize.ShloMosaic.Adequacy
import Idealize.ShloMosaic.Init

noncomputable section

namespace Cert.Proof

open Idealize.ShloMosaic Idealize.SL.Sem Idealize.ShloMosaic.ValueIdx

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run, with what it says of the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments, the kernel's run ends with the output and the attention matrix at the whole-array
    functions of its arguments, and the reference's run at the same functions of its own, equal, arguments. -/
theorem algebraic : Cert.algebraic_KernelIdeal_ReferenceIdeal := by
  intro m ρ m' ρ' _ hagree
  refine ⟨_, _, Cert.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v18_eq, (hagree c).1, (hagree c).2.1, (hagree c).2.2.1, (hagree c).2.2.2]
    funext i
    obtain ⟨b, n, d, rfl⟩ : ∃ (b : Fin 16) (n : Fin 2048) (d : Fin 64), i = ix3 b n d := ⟨i 0, i 1, i 2, eq_ix3 i⟩
    exact Cert.RefSide.ref_out _ _ _ _ b n d
  · rw [Cert.ReferenceIdeal.Read.val_main_v17_eq, (hagree c).1, (hagree c).2.1, (hagree c).2.2.2]
    funext i
    obtain ⟨b, n, q, rfl⟩ : ∃ (b : Fin 16) (n q : Fin 2048), i = ix3 b n q := ⟨i 0, i 1, i 2, eq_ix3 i⟩
    exact Cert.RefSide.ref_att _ _ _ b n q

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
